-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : IVec S2x640000 32) (main_arg2 : FVec F S640000 .f32) (main_arg3 : FVec F S128x128 .f32) (main_arg4 : FVec F S128 .f32) (main_arg5 : FVec F S128x128 .f32) (main_arg6 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S10000x128 : Shape := ⟨2, ![10000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S1x640000 : Shape := ⟨2, ![1, 640000]⟩
abbrev S10000 : Shape := ⟨1, ![10000]⟩
abbrev S650000 : Shape := ⟨1, ![650000]⟩
abbrev S_ : Shape := ⟨0, ![]⟩
abbrev S650000x1 : Shape := ⟨2, ![650000, 1]⟩
abbrev S1000x128 : Shape := ⟨2, ![1000, 128]⟩
abbrev S650000x128 : Shape := ⟨2, ![650000, 128]⟩
abbrev S1x128 : Shape := ⟨2, ![1, 128]⟩

abbrev nBuf : Space → Nat
  | .hbm => 85
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S10000, .i32⟩
  | .hbm, ⟨12, _⟩ => ⟨S650000, .i32⟩
  | .hbm, ⟨13, _⟩ => ⟨S650000, .i32⟩
  | .hbm, ⟨14, _⟩ => ⟨S_, .f32⟩
  | .hbm, ⟨15, _⟩ => ⟨S10000, .f32⟩
  | .hbm, ⟨16, _⟩ => ⟨S650000, .f32⟩
  | .hbm, ⟨17, _⟩ => ⟨S_, .f32⟩
  | .hbm, ⟨18, _⟩ => ⟨S10000, .f32⟩
  | .hbm, ⟨19, _⟩ => ⟨S650000x1, .i32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .i1⟩
  | .hbm, ⟨24, _⟩ => ⟨S10000, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S_, .i32⟩
  | .hbm, ⟨29, _⟩ => ⟨S650000, .i32⟩
  | .hbm, ⟨30, _⟩ => ⟨S650000, .i1⟩
  | .hbm, ⟨31, _⟩ => ⟨S_, .i32⟩
  | .hbm, ⟨32, _⟩ => ⟨S650000, .i32⟩
  | .hbm, ⟨33, _⟩ => ⟨S650000, .i32⟩
  | .hbm, ⟨34, _⟩ => ⟨S650000, .i32⟩
  | .hbm, ⟨35, _⟩ => ⟨S650000x1, .i32⟩
  | .hbm, ⟨36, _⟩ => ⟨S650000, .f32⟩
  | .hbm, ⟨37, _⟩ => ⟨S650000, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000, .f32⟩
  | .hbm, ⟨47, _⟩ => ⟨S650000, .f32⟩
  | .hbm, ⟨48, _⟩ => ⟨S10000x128, .f32⟩
  | .hbm, ⟨49, _⟩ => ⟨S650000x1, .f32⟩
  | .hbm, ⟨50, _⟩ => ⟨S_, .i32⟩
  | .hbm, ⟨51, _⟩ => ⟨S650000, .i32⟩
  | .hbm, ⟨52, _⟩ => ⟨S650000, .i1⟩
  | .hbm, ⟨53, _⟩ => ⟨S_, .i32⟩
  | .hbm, ⟨54, _⟩ => ⟨S650000, .i32⟩
  | .hbm, ⟨55, _⟩ => ⟨S650000, .i32⟩
  | .hbm, ⟨56, _⟩ => ⟨S650000, .i32⟩
  | .hbm, ⟨57, _⟩ => ⟨S650000x1, .i32⟩
  | .hbm, ⟨58, _⟩ => ⟨S650000x128, .f32⟩
  | .hbm, ⟨59, _⟩ => ⟨S650000x128, .f32⟩
  | .hbm, ⟨60, _⟩ => ⟨S650000x128, .f32⟩
  | .hbm, ⟨61, _⟩ => ⟨S_, .f32⟩
  | .hbm, ⟨62, _⟩ => ⟨S10000x128, .f32⟩
  | .hbm, ⟨63, _⟩ => ⟨S650000x1, .i32⟩
  | .hbm, ⟨64, _⟩ => ⟨S10000x128, .f32⟩
  | .hbm, ⟨65, _⟩ => ⟨S1x128, .f32⟩
  | .hbm, ⟨66, _⟩ => ⟨S10000x128, .f32⟩
  | .hbm, ⟨67, _⟩ => ⟨S650000x1, .f32⟩
  | .hbm, ⟨68, _⟩ => ⟨S_, .i32⟩
  | .hbm, ⟨69, _⟩ => ⟨S650000, .i32⟩
  | .hbm, ⟨70, _⟩ => ⟨S650000, .i1⟩
  | .hbm, ⟨71, _⟩ => ⟨S_, .i32⟩
  | .hbm, ⟨72, _⟩ => ⟨S650000, .i32⟩
  | .hbm, ⟨73, _⟩ => ⟨S650000, .i32⟩
  | .hbm, ⟨74, _⟩ => ⟨S650000, .i32⟩
  | .hbm, ⟨75, _⟩ => ⟨S650000x1, .i32⟩
  | .hbm, ⟨76, _⟩ => ⟨S650000x128, .f32⟩
  | .hbm, ⟨77, _⟩ => ⟨S650000x128, .f32⟩
  | .hbm, ⟨78, _⟩ => ⟨S650000x128, .f32⟩
  | .hbm, ⟨79, _⟩ => ⟨S_, .f32⟩
  | .hbm, ⟨80, _⟩ => ⟨S10000x128, .f32⟩
  | .hbm, ⟨81, _⟩ => ⟨S650000x1, .i32⟩
  | .hbm, ⟨82, _⟩ => ⟨S10000x128, .f32⟩
  | .hbm, ⟨83, _⟩ => ⟨S1x128, .f32⟩
  | .hbm, ⟨84, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1x128, .f32⟩
  | .local _ .vmem, ⟨8, _⟩ => ⟨S128x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1x128, .f32⟩
  | .local _ .vmem, ⟨14, _⟩ => ⟨S1000x128, .f32⟩
  | .local _ .vmem, ⟨15, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_9 : Ref sig .tc := ⟨.hbm, 68, rfl⟩
abbrev main_v50 : Ref sig .tc := ⟨.hbm, 69, rfl⟩
abbrev main_v51 : Ref sig .tc := ⟨.hbm, 70, rfl⟩
abbrev main_c_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S10000_S650000_d0 : Shape.Concatenates [S640000, S10000] S650000 0
  bcast_S_S10000 : S_.BroadcastsInDim S10000 (![] : Fin 0 → Fin S10000.rank)
  bcast_S650000_S650000x1_0 : S650000.BroadcastsInDim S650000x1 (![0] : Fin 1 → Fin S650000x1.rank)
  bcast_S_S650000 : S_.BroadcastsInDim S650000 (![] : Fin 0 → Fin S650000.rank)
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  shapeCasts_S128_S1x128 : S128.ShapeCasts S1x128
  shapeCasts_S1000x128_S1000x128 : S1000x128.ShapeCasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  dot_S1000x128_S128x128_S1000x128_1_0_0_1_n_n_wf : DotDims.WF S1000x128 S128x128 S1000x128 [1] [0] [0] [1] [] []
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S10000x128.size a
  hwx0_2 : ∀ i : grid0.Coords, EltTy.bits .f32 = 32 ∨ (Rect.block (s := S10000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S10000x128.size a
  hwx1_3 : ∀ i : grid1.Coords, EltTy.bits .f32 = 32 ∨ (Rect.block (s := S10000x128) S1000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S10000x128.size a
  hwx2_0 : ∀ i : grid2.Coords, EltTy.bits .f32 = 32 ∨ (Rect.block (s := S10000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S10000x128.size a
  hwx2_2 : ∀ i : grid2.Coords, EltTy.bits .f32 = 32 ∨ (Rect.block (s := S10000x128) S1000x128.size (cc2_transform_2 i) (hinb2_2 i)).WholeWords (EltTy.packing .f32)

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S1000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S1x640000 : Shape := ⟨2, ![1, 640000]⟩
abbrev S10000 : Shape := ⟨1, ![10000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 135
  | .vmem => 0
  | .smem => 0
  | _ => 0

abbrev hbmTy0_0 (i : Nat) : BufTy := match i % 128 with
  | 0 => ⟨S10000x128, .f32⟩
  | 1 => ⟨S2x640000, .i32⟩
  | 2 => ⟨S640000, .f32⟩
  | 3 => ⟨S128x128, .f32⟩
  | 4 => ⟨S128, .f32⟩
  | 5 => ⟨S128x128, .f32⟩
  | 6 => ⟨S128, .f32⟩
  | 7 => ⟨S10000x128, .f32⟩
  | 8 => ⟨S1x640000, .i32⟩
  | 9 => ⟨S640000, .i32⟩
  | 10 => ⟨S1x640000, .i32⟩
  | 11 => ⟨S640000, .i32⟩
  | 12 => ⟨S10000, .i32⟩
  | 13 => ⟨S650000, .i32⟩
  | 14 => ⟨S650000, .i32⟩
  | 15 => ⟨S_, .f32⟩
  | 16 => ⟨S10000, .f32⟩
  | 17 => ⟨S650000, .f32⟩
  | 18 => ⟨S_, .f32⟩
  | 19 => ⟨S10000, .f32⟩
  | 20 => ⟨S650000x1, .i32⟩
  | 21 => ⟨S10000, .f32⟩
  | 22 => ⟨S_, .f32⟩
  | 23 => ⟨S10000, .f32⟩
  | 24 => ⟨S10000, .i1⟩
  | 25 => ⟨S10000, .f32⟩
  | 26 => ⟨S_, .f32⟩
  | 27 => ⟨S10000, .f32⟩
  | 28 => ⟨S10000, .f32⟩
  | 29 => ⟨S_, .i32⟩
  | 30 => ⟨S650000, .i32⟩
  | 31 => ⟨S650000, .i1⟩
  | 32 => ⟨S_, .i32⟩
  | 33 => ⟨S650000, .i32⟩
  | 34 => ⟨S650000, .i32⟩
  | 35 => ⟨S650000, .i32⟩
  | 36 => ⟨S650000x1, .i32⟩
  | 37 => ⟨S650000, .f32⟩
  | 38 => ⟨S650000, .f32⟩
  | 39 => ⟨S_, .i32⟩
  | 40 => ⟨S650000, .i32⟩
  | 41 => ⟨S650000, .i1⟩
  | 42 => ⟨S_, .i32⟩
  | 43 => ⟨S650000, .i32⟩
  | 44 => ⟨S650000, .i32⟩
  | 45 => ⟨S650000, .i32⟩
  | 46 => ⟨S650000x1, .i32⟩
  | 47 => ⟨S650000, .f32⟩
  | 48 => ⟨S650000, .f32⟩
  | 49 => ⟨S650000x1, .f32⟩
  | 50 => ⟨S_, .i32⟩
  | 51 => ⟨S650000, .i32⟩
  | 52 => ⟨S650000, .i1⟩
  | 53 => ⟨S_, .i32⟩
  | 54 => ⟨S650000, .i32⟩
  | 55 => ⟨S650000, .i32⟩
  | 56 => ⟨S650000, .i32⟩
  | 57 => ⟨S650000x1, .i32⟩
  | 58 => ⟨S650000x128, .f32⟩
  | 59 => ⟨S650000x128, .f32⟩
  | 60 => ⟨S650000x128, .f32⟩
  | 61 => ⟨S_, .f32⟩
  | 62 => ⟨S10000x128, .f32⟩
  | 63 => ⟨S650000x1, .i32⟩
  | 64 => ⟨S10000x128, .f32⟩
  | 65 => ⟨S1x128, .f32⟩
  | 66 => ⟨S10000x128, .f32⟩
  | 67 => ⟨S10000x128, .f32⟩
  | 68 => ⟨S_, .f32⟩
  | 69 => ⟨S10000x128, .f32⟩
  | 70 => ⟨S10000x128, .f32⟩
  | 71 => ⟨S10000x128, .f32⟩
  | 72 => ⟨S1x640000, .i32⟩
  | 73 => ⟨S640000, .i32⟩
  | 74 => ⟨S1x640000, .i32⟩
  | 75 => ⟨S640000, .i32⟩
  | 76 => ⟨S10000, .i32⟩
  | 77 => ⟨S650000, .i32⟩
  | 78 => ⟨S650000, .i32⟩
  | 79 => ⟨S_, .f32⟩
  | 80 => ⟨S10000, .f32⟩
  | 81 => ⟨S650000, .f32⟩
  | 82 => ⟨S_, .f32⟩
  | 83 => ⟨S10000, .f32⟩
  | 84 => ⟨S650000x1, .i32⟩
  | 85 => ⟨S10000, .f32⟩
  | 86 => ⟨S_, .f32⟩
  | 87 => ⟨S10000, .f32⟩
  | 88 => ⟨S10000, .i1⟩
  | 89 => ⟨S10000, .f32⟩
  | 90 => ⟨S_, .f32⟩
  | 91 => ⟨S10000, .f32⟩
  | 92 => ⟨S10000, .f32⟩
  | 93 => ⟨S_, .i32⟩
  | 94 => ⟨S650000, .i32⟩
  | 95 => ⟨S650000, .i1⟩
  | 96 => ⟨S_, .i32⟩
  | 97 => ⟨S650000, .i32⟩
  | 98 => ⟨S650000, .i32⟩
  | 99 => ⟨S650000, .i32⟩
  | 100 => ⟨S650000x1, .i32⟩
  | 101 => ⟨S650000, .f32⟩
  | 102 => ⟨S650000, .f32⟩
  | 103 => ⟨S_, .i32⟩
  | 104 => ⟨S650000, .i32⟩
  | 105 => ⟨S650000, .i1⟩
  | 106 => ⟨S_, .i32⟩
  | 107 => ⟨S650000, .i32⟩
  | 108 => ⟨S650000, .i32⟩
  | 109 => ⟨S650000, .i32⟩
  | 110 => ⟨S650000x1, .i32⟩
  | 111 => ⟨S650000, .f32⟩
  | 112 => ⟨S650000, .f32⟩
  | 113 => ⟨S650000x1, .f32⟩
  | 114 => ⟨S_, .i32⟩
  | 115 => ⟨S650000, .i32⟩
  | 116 => ⟨S650000, .i1⟩
  | 117 => ⟨S_, .i32⟩
  | 118 => ⟨S650000, .i32⟩
  | 119 => ⟨S650000, .i32⟩
  | 120 => ⟨S650000, .i32⟩
  | 121 => ⟨S650000x1, .i32⟩
  | 122 => ⟨S650000x128, .f32⟩
  | 123 => ⟨S650000x128, .f32⟩
  | 124 => ⟨S650000x128, .f32⟩
  | 125 => ⟨S_, .f32⟩
  | 126 => ⟨S10000x128, .f32⟩
  | 127 => ⟨S650000x1, .i32⟩
  | _ => ⟨S10000x128, .f32⟩

abbrev hbmTy0_1 (i : Nat) : BufTy := match i % 128 with
  | 0 => ⟨S10000x128, .f32⟩
  | 1 => ⟨S1x128, .f32⟩
  | 2 => ⟨S10000x128, .f32⟩
  | 3 => ⟨S10000x128, .f32⟩
  | 4 => ⟨S_, .f32⟩
  | 5 => ⟨S10000x128, .f32⟩
  | 6 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call1_cst : Ref sig .tc := ⟨.hbm, 68, rfl⟩
abbrev main_call1_v0 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_c_13 : Ref sig .tc := ⟨.hbm, 93, rfl⟩
abbrev main_v69 : Ref sig .tc := ⟨.hbm, 94, rfl⟩
abbrev main_v70 : Ref sig .tc := ⟨.hbm, 95, rfl⟩
abbrev main_c_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_15 : Ref sig .tc := ⟨.hbm, 103, rfl⟩
abbrev main_v77 : Ref sig .tc := ⟨.hbm, 104, rfl⟩
abbrev main_v78 : Ref sig .tc := ⟨.hbm, 105, rfl⟩
abbrev main_c_16 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_c_17 : Ref sig .tc := ⟨.hbm, 114, rfl⟩
abbrev main_v86 : Ref sig .tc := ⟨.hbm, 115, rfl⟩
abbrev main_v87 : Ref sig .tc := ⟨.hbm, 116, rfl⟩
abbrev main_c_18 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_19 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_call3_cst : Ref sig .tc := ⟨.hbm, 132, rfl⟩
abbrev main_call3_v0 : Ref sig .tc := ⟨.hbm, 133, rfl⟩
abbrev main_v101 : Ref sig .tc := ⟨.hbm, 134, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S10000_S650000_d0 : Shape.Concatenates [S640000, S10000] S650000 0
  bcast_S_S10000 : S_.BroadcastsInDim S10000 (![] : Fin 0 → Fin S10000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf

class Facts : Prop extends Facts₀ where

variable [Facts]
-- ==== Proof.KernelRun.lean ====
/-
  The idealized kernel's run with EVERY buffer named: every weakly fair execution of the whole program — the host
  operations, the three kernel regions and the host operations between them — terminates without a fault, and each
  buffer that is not scoped to a region ends holding what the fold of the program's segments leaves in it (the
  generated `Gen.W8`: host stretches applied in order, each region's arrays at what its write-backs leave).
  The result array and the argument arrays are such buffers.
-/
import proofs.«166314_j32925219291716_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's segments, read against the final state: every unscoped buffer of every core ends at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same with the buffers this certificate speaks of picked out: the result array and the seven argument arrays. -/
theorem run_named : θ_run defs (onTc (τ := τ) (main (F := F))) ⟨m, fun _ => 0, ρ⟩ (fun r => ∀ c : Dev nD,
      r.2.mem ((c.tc : Thread nD τ).loc main_v63) = W8 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v63 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)
    (run_all m ρ)

end Cert.KernelIdeal.Whole

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.Layers.lean ====
/-
  The two dense pieces of a graph-convolution layer, as functions of whole arrays on the extended reals.

  * `dense x w`: the product of the node-feature matrix `x` ([10000, 128]) with a weight matrix `w` ([128, 128]):
    entry (r, j) is the sum over k of x(r, k) · w(k, j).
  * `biasRelu a b`: a bias row `b` ([128]) added to every row of `a`, then the maximum with zero, entry by entry:
    entry (r, j) is max (a(r, j) + b(j)) 0.

  Both programs of this certificate are compositions of these two with the same graph aggregation in between.
-/
import Idealize.ShloMosaic.Lib.ValueIdx

noncomputable section

namespace Cert.Gcn

open Idealize.ShloMosaic Idealize.ShloMosaic.ValueIdx

/-- A [10000, 128] array of extended reals. -/
abbrev Feat : Type := (⟨2, ![10000, 128]⟩ : Shape).Idx → EReal
/-- A [128, 128] array of extended reals. -/
abbrev Weight : Type := (⟨2, ![128, 128]⟩ : Shape).Idx → EReal
/-- A [128] array of extended reals. -/
abbrev Bias : Type := (⟨1, ![128]⟩ : Shape).Idx → EReal

/-- The zero every maximum is taken against: the extended real of the all-zero word. -/
abbrev zero : EReal := FloatOps.ofBits (F := Ideal) .f32 0x00000000#32

/-- Node features times a weight matrix: entry (r, j) is the sum over k of x(r, k) · w(k, j). -/
def dense (x : Feat) (w : Weight) : Feat :=
  fun i => ∑ k : Fin 128, x (ix2 (⟨(i 0).val, idx2_lt0 i⟩ : Fin 10000) k) * w (ix2 k (⟨(i 1).val, idx2_lt1 i⟩ : Fin 128))

/-- A bias row added to every row, then the maximum with zero: entry (r, j) is max (a(r, j) + b(j)) 0. -/
def biasRelu (a : Feat) (b : Bias) : Feat :=
  fun i => max (a i + b (ix1 (⟨(i 1).val, idx2_lt1 i⟩ : Fin 128))) zero

/-- The same with the bias given as a [1, 128] row array: entry (r, j) is max (a(r, j) + b(0, j)) 0. -/
def biasReluRow (a : Feat) (b : (⟨2, ![1, 128]⟩ : Shape).Idx → EReal) : Feat :=
  fun i => max (a i + b (ix2 (0 : Fin 1) (⟨(i 1).val, idx2_lt1 i⟩ : Fin 128))) zero

/-- `dense` at an index given by its coordinates. -/
theorem dense_apply (x : Feat) (w : Weight) (r : Fin 10000) (j : Fin 128) :
    dense x w (ix2 r j) = ∑ k : Fin 128, x (ix2 r k) * w (ix2 k j) := rfl

/-- `biasRelu` at an index given by its coordinates. -/
theorem biasRelu_apply (a : Feat) (b : Bias) (r : Fin 10000) (j : Fin 128) :
    biasRelu a b (ix2 r j) = max (a (ix2 r j) + b (ix1 j)) zero := rfl

end Cert.Gcn

end
-- ==== Proof.Payloads.lean ====
/-
  What each kernel body computes from the blocks it loads, read at one entry (p, q) of its [1000, 128] output block,
  on the extended reals (where a change of float format is the identity):

  * the first body multiplies its [1000, 128] block with the whole [128, 128] weight matrix into a zero accumulator:
    the sum over k of x(p, k) · w(k, q);
  * the third body adds the [1, 128] bias row to every row of its block and takes the maximum with zero:
    max (a(p, q) + b(0, q)) 0;
  * the second body does the third's work and then the first's: the sum over k of max (a(p, k) + b(0, k)) 0 · w(k, q).
-/
import proofs.«166314_j32925219291716_2_alg».proof.Proof.Gen.KernelIdeal.Skeleton
import proofs.«166314_j32925219291716_2_alg».proof.Proof.LibRowOps
import proofs.«166314_j32925219291716_2_alg».proof.Proof.Layers
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The matrix product's dimension numbers: the contracted axis is the left operand's second and the right operand's
    first; the result's row is the left operand's row and its column the right operand's column. -/
theorem dot_l0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem dot_l1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem dot_r0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem dot_r1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- A [1000, 128] × [128, 128] product into a zero accumulator at (p, q): the sum over k of l(p, k) · r(k, q). -/
theorem product_apply (l : FVec Ideal S1000x128 .bf16) (r : FVec Ideal S128x128 .bf16) (p : Fin 1000) (q : Fin 128) :
    matmul dot_S1000x128_S128x128_S1000x128_1_0_0_1_n_n none l r (constant S1000x128 .f32 0x00000000#32) (ix2 p q)
      = ∑ k : Fin 128, l (ix2 p k) * r (ix2 k q) :=
  Cert.LibRowOps.matmul_zero_apply dot_S1000x128_S128x128_S1000x128_1_0_0_1_n_n none l r rfl rfl dot_l0 dot_l1 dot_r0 dot_r1 p q

/-- The first body at (p, q): row p of its block against column q of the weights. -/
theorem matmul_at (x : Vec Ideal S1000x128 .f32) (w : Vec Ideal S128x128 .f32) (p : Fin 1000) (q : Fin 128) :
    k0_pay1 x w (ix2 p q) = ∑ k : Fin 128, x (ix2 p k) * w (ix2 k q) :=
  product_apply (truncf .bf16 x bitsLt_bf16_f32) (truncf .bf16 w bitsLt_bf16_f32) p q

/-- The [1, 128] bias row broadcast over the block's rows, at (p, q): its entry (0, q). -/
theorem biasRow_at (b : Vec Ideal S1x128 .f32) (p : Fin 1000) (q : Fin 128) :
    broadcastTo S1000x128 b broadcasts_S1x128_S1000x128 (ix2 p q) = b (ix2 (0 : Fin 1) q) :=
  broadcastTo_apply b broadcasts_S1x128_S1000x128 (ix2 p q) (ix2 (0 : Fin 1) q) (fun a => by
    match a with
    | ⟨0, _⟩ => rfl
    | ⟨1, _⟩ => rfl)

/-- The third body at (p, q): the block's entry plus the bias row's entry q, against zero. -/
theorem biasRelu_at (a : Vec Ideal S1000x128 .f32) (b : Vec Ideal S1x128 .f32) (p : Fin 1000) (q : Fin 128) :
    k2_pay1 a b (ix2 p q) = max (a (ix2 p q) + b (ix2 (0 : Fin 1) q)) Cert.Gcn.zero := by
  unfold k2_pay1
  show max (shapeCast S1000x128 a shapeCasts_S1000x128_S1000x128 (ix2 p q)
      + broadcastTo S1000x128 (shapeCast S1x128 b shapeCasts_S1x128_S1x128) broadcasts_S1x128_S1000x128 (ix2 p q)) _ = _
  rw [shapeCast_self, shapeCast_self, biasRow_at]
  rfl

/-- The second body is the third's value multiplied with its weight block. -/
theorem biasReluMatmul_eq (a : Vec Ideal S1000x128 .f32) (b : Vec Ideal S1x128 .f32) (w : Vec Ideal S128x128 .f32) :
    k1_pay1 a b w = matmul dot_S1000x128_S128x128_S1000x128_1_0_0_1_n_n none
      (truncf .bf16 (k2_pay1 a b) bitsLt_bf16_f32) (truncf .bf16 w bitsLt_bf16_f32) (constant S1000x128 .f32 0x00000000#32) := rfl

/-- The second body at (p, q). -/
theorem biasReluMatmul_at (a : Vec Ideal S1000x128 .f32) (b : Vec Ideal S1x128 .f32) (w : Vec Ideal S128x128 .f32)
    (p : Fin 1000) (q : Fin 128) :
    k1_pay1 a b w (ix2 p q) = ∑ k : Fin 128, max (a (ix2 p k) + b (ix2 (0 : Fin 1) k)) Cert.Gcn.zero * w (ix2 k q) := by
  rw [biasReluMatmul_eq]
  refine (product_apply _ _ p q).trans (Finset.sum_congr rfl fun k _ => ?_)
  show k2_pay1 a b (ix2 p k) * w (ix2 k q) = _
  rw [biasRelu_at]

end Cert.KernelIdeal.Payload

end
-- ==== Proof.Blocks0.lean ====
/-
  The first kernel region (the feature transform of layer one), read as ONE function of whole arrays.

  The region's grid has ten points; point t loads rows 1000·t … 1000·t + 999 of the [10000, 128] input and the whole
  [128, 128] weight matrix, and writes rows 1000·t … 1000·t + 999 of the [10000, 128] output: the product of its input
  block with the weights. Entry (p, q) of block t is therefore entry (1000·t + p, q) of `dense` of the two whole arrays,
  and the ten blocks tile the output, so the output array ends holding `dense x w` — whatever contents the region is
  entered with.
-/
import proofs.«166314_j32925219291716_2_alg».proof.Proof.Gen.KernelIdeal.Frame
import proofs.«166314_j32925219291716_2_alg».proof.Proof.Payloads
import proofs.«166314_j32925219291716_2_alg».proof.Proof.Layers
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks0

open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- The block indices of the three windows at every grid point: the row-blocked windows sit at block (t, 0), the weight
    window at block (0, 0). -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block of the output is some point's. -/
theorem blockOnto : ∀ q0 : Fin 10, ∃ t : Fin cfg0.N, win0_2.index t = ![q0.val, 0] :=
  (by decide +kernel : ∀ q0 : Fin 10, ∃ t : Fin grid0.N, win0_2.index t = ![q0.val, 0])

/-- The body's product at any entry of its block, by the entry's coordinates. -/
theorem product_at (x : Vec Ideal S1000x128 .f32) (w : Vec Ideal S128x128 .f32) (j : S1000x128.Idx) :
    k0_pay1 x w j = ∑ k : Fin 128, x (ix2 (j 0) k) * w (ix2 k (j 1)) := by
  obtain ⟨p, q, rfl⟩ : ∃ (p : Fin 1000) (q : Fin 128), j = ix2 p q := ⟨j 0, j 1, eq_ix2 j⟩
  exact Cert.KernelIdeal.Payload.matmul_at x w p q

/-- The input window's block at point t is rows 1000·t … of the input array. -/
theorem inputBlock (c : Dev nD) (t : Fin cfg0.N) (y : S1000x128.Idx) (i : S10000x128.Idx)
    (h0 : (i 0).val = 1000 * t.val + (y 0).val) (h1 : (i 1).val = (y 1).val) :
    (iblk0 V c 0 t : Vec Ideal S1000x128 .f32) y = (V c main_arg0 : S10000x128.Idx → EReal) i := by
  obtain ⟨e0, e1, -⟩ := blockIndex t
  unfold iblk0
  rw [View.read_apply]
  show V c main_arg0 _ = V c main_arg0 _
  congr 1
  funext a
  apply Fin.ext
  match a with
  | ⟨0, _⟩ => show win0_0.index t (0 : Fin 2) * 1000 + 1 * (y 0).val = (i 0).val; rw [e0, h0]; omega
  | ⟨1, _⟩ => show win0_0.index t (1 : Fin 2) * 128 + 1 * (y 1).val = (i 1).val; rw [e1, h1]; omega

/-- The weight window's block at every point is the whole weight matrix. -/
theorem weightBlock (c : Dev nD) (t : Fin cfg0.N) (y : S128x128.Idx) (i : S128x128.Idx)
    (h0 : (i 0).val = (y 0).val) (h1 : (i 1).val = (y 1).val) :
    (iblk0 V c 1 t : Vec Ideal S128x128 .f32) y = (V c main_arg3 : S128x128.Idx → EReal) i := by
  obtain ⟨-, -, e2, e3, -⟩ := blockIndex t
  unfold iblk0
  rw [View.read_apply]
  show V c main_arg3 _ = V c main_arg3 _
  congr 1
  funext a
  apply Fin.ext
  match a with
  | ⟨0, _⟩ => show win0_1.index t (0 : Fin 2) * 128 + 1 * (y 0).val = (i 0).val; rw [e2, h0]; omega
  | ⟨1, _⟩ => show win0_1.index t (1 : Fin 2) * 128 + 1 * (y 1).val = (i 1).val; rw [e3, h1]; omega

/-- What point t writes back is block t of `dense` of the arrays the region is entered with. -/
theorem flushed (c : Dev nD) (t : Fin cfg0.N) :
    (dat0 V c).flushed 2 t = ((cfg0.win 2).blk t).view.read (Elt Ideal) (Cert.Gcn.dense (V c main_arg0) (V c main_arg3)) := by
  show (cfg0.win 2).cut (grid0.coords t) ((dat0 V c).after 2 t) = _
  rw [after0_2]
  unfold out0_2
  rw [View.canon_unit_zero zeroOffsets]
  simp only [View.ld_unit_zero (S := S1000x128) zeroOffsets, View.ld_unit_zero (S := S128x128) zeroOffsets]
  obtain ⟨-, -, -, -, e4, e5⟩ := blockIndex t
  funext j
  show k0_pay1 (iblk0 V c 0 t) (iblk0 V c 1 t) j = Cert.Gcn.dense (V c main_arg0) (V c main_arg3) (((cfg0.win 2).blk t).view.emb j)
  refine (product_at (iblk0 V c 0 t) (iblk0 V c 1 t) j).trans ?_
  unfold Cert.Gcn.dense
  refine Finset.sum_congr rfl fun k _ => ?_
  refine congrArg₂ (· * ·) (inputBlock V c t _ _ ?_ ?_) (weightBlock V c t _ _ ?_ ?_)
  · show win0_2.index t (0 : Fin 2) * 1000 + 1 * (j 0).val = 1000 * t.val + (j 0).val
    rw [e4]; omega
  · rfl
  · rfl
  · show win0_2.index t (1 : Fin 2) * 128 + 1 * (j 1).val = (j 1).val
    rw [e5]; omega

/-- An index of the output array is in point t's block iff each coordinate is in the block's range on its axis. -/
theorem mem_block (t : Fin cfg0.N) (i : S10000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v33).slice (win0_2.rect t)).set ↔ _
  rw [View.set_slice_whole, Rect.mem_set_unit]
  exact Iff.rfl

/-- Row r of the output is written by point r / 1000: the ten blocks tile the array. -/
theorem cover (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  obtain ⟨t, ht⟩ := blockOnto ⟨(i 0).val / 1000, by omega⟩
  have q0 : win0_2.index t (0 : Fin 2) = (i 0).val / 1000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 128 ≤ (i 1).val ∧ (i 1).val < win0_2.index t (1 : Fin 2) * 128 + 128; omega

/-- The output array after the region: `dense` of the input and weight arrays as the region found them. -/
theorem final (c : Dev nD) :
    (dat0 V c).arrAt 2 cfg0.N = Cert.Gcn.dense (V c main_arg0) (V c main_arg3) :=
  (dat0 V c).arrAt_eq_of_cover 2 (Cert.Gcn.dense (V c main_arg0) (V c main_arg3)) (fun t _ => flushed V c t) cover

end Cert.KernelIdeal.Blocks0

end
-- ==== Proof.Blocks1.lean ====
/-
  The second kernel region (bias and rectifier of layer one fused with the feature transform of layer two), read as
  ONE function of whole arrays.

  Point t of its ten-point grid loads rows 1000·t … 1000·t + 999 of the aggregated [10000, 128] array, the whole
  [1, 128] bias row and the whole [128, 128] weight matrix, and writes the same rows of the output: the rectified
  biased block times the weights. Entry (p, q) of block t is entry (1000·t + p, q) of
  `dense (biasReluRow a b) w` of the whole arrays, and the ten blocks tile the output.
-/
import proofs.«166314_j32925219291716_2_alg».proof.Proof.Gen.KernelIdeal.Frame
import proofs.«166314_j32925219291716_2_alg».proof.Proof.Payloads
import proofs.«166314_j32925219291716_2_alg».proof.Proof.Layers
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks1

open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- The block indices of the four windows at every grid point: the row-blocked windows sit at block (t, 0), the bias
    and weight windows at block (0, 0). -/
theorem in0 : ∀ t : Fin cfg1.N, win1_0.index t (0 : Fin 2) = t.val := (by decide +kernel : ∀ t : Fin grid1.N, _)
theorem in1 : ∀ t : Fin cfg1.N, win1_0.index t (1 : Fin 2) = 0 := (by decide +kernel : ∀ t : Fin grid1.N, _)
theorem bias0 : ∀ t : Fin cfg1.N, win1_1.index t (0 : Fin 2) = 0 := (by decide +kernel : ∀ t : Fin grid1.N, _)
theorem bias1 : ∀ t : Fin cfg1.N, win1_1.index t (1 : Fin 2) = 0 := (by decide +kernel : ∀ t : Fin grid1.N, _)
theorem wt0 : ∀ t : Fin cfg1.N, win1_2.index t (0 : Fin 2) = 0 := (by decide +kernel : ∀ t : Fin grid1.N, _)
theorem wt1 : ∀ t : Fin cfg1.N, win1_2.index t (1 : Fin 2) = 0 := (by decide +kernel : ∀ t : Fin grid1.N, _)
theorem out0 : ∀ t : Fin cfg1.N, win1_3.index t (0 : Fin 2) = t.val := (by decide +kernel : ∀ t : Fin grid1.N, _)
theorem out1 : ∀ t : Fin cfg1.N, win1_3.index t (1 : Fin 2) = 0 := (by decide +kernel : ∀ t : Fin grid1.N, _)

/-- Every row block of the output is some point's. -/
theorem blockOnto : ∀ q0 : Fin 10, ∃ t : Fin cfg1.N, win1_3.index t = ![q0.val, 0] :=
  (by decide +kernel : ∀ q0 : Fin 10, ∃ t : Fin grid1.N, win1_3.index t = ![q0.val, 0])

/-- The body's value at any entry of its block, by the entry's coordinates. -/
theorem body_at (a : Vec Ideal S1000x128 .f32) (b : Vec Ideal S1x128 .f32) (w : Vec Ideal S128x128 .f32) (j : S1000x128.Idx) :
    k1_pay1 a b w j = ∑ k : Fin 128, max (a (ix2 (j 0) k) + b (ix2 (0 : Fin 1) k)) Cert.Gcn.zero * w (ix2 k (j 1)) := by
  obtain ⟨p, q, rfl⟩ : ∃ (p : Fin 1000) (q : Fin 128), j = ix2 p q := ⟨j 0, j 1, eq_ix2 j⟩
  exact Cert.KernelIdeal.Payload.biasReluMatmul_at a b w p q

/-- The input window's block at point t is rows 1000·t … of the aggregated array. -/
theorem inputBlock (c : Dev nD) (t : Fin cfg1.N) (y : S1000x128.Idx) (i : S10000x128.Idx)
    (h0 : (i 0).val = 1000 * t.val + (y 0).val) (h1 : (i 1).val = (y 1).val) :
    (iblk1 V c 0 t : Vec Ideal S1000x128 .f32) y = (V c main_v46 : S10000x128.Idx → EReal) i := by
  have e0 := in0 t
  have e1 := in1 t
  unfold iblk1
  rw [View.read_apply]
  show V c main_v46 _ = V c main_v46 _
  congr 1
  funext a
  apply Fin.ext
  match a with
  | ⟨0, _⟩ => show win1_0.index t (0 : Fin 2) * 1000 + 1 * (y 0).val = (i 0).val; rw [e0, h0]; omega
  | ⟨1, _⟩ => show win1_0.index t (1 : Fin 2) * 128 + 1 * (y 1).val = (i 1).val; rw [e1, h1]; omega

/-- The bias window's block at every point is the whole bias row. -/
theorem biasBlock (c : Dev nD) (t : Fin cfg1.N) (y : S1x128.Idx) (i : S1x128.Idx)
    (h0 : (i 0).val = (y 0).val) (h1 : (i 1).val = (y 1).val) :
    (iblk1 V c 1 t : Vec Ideal S1x128 .f32) y = (V c main_v47 : S1x128.Idx → EReal) i := by
  have e0 := bias0 t
  have e1 := bias1 t
  unfold iblk1
  rw [View.read_apply]
  show V c main_v47 _ = V c main_v47 _
  congr 1
  funext a
  apply Fin.ext
  match a with
  | ⟨0, _⟩ => show win1_1.index t (0 : Fin 2) * 1 + 1 * (y 0).val = (i 0).val; rw [e0, h0]; omega
  | ⟨1, _⟩ => show win1_1.index t (1 : Fin 2) * 128 + 1 * (y 1).val = (i 1).val; rw [e1, h1]; omega

/-- The weight window's block at every point is the whole weight matrix. -/
theorem weightBlock (c : Dev nD) (t : Fin cfg1.N) (y : S128x128.Idx) (i : S128x128.Idx)
    (h0 : (i 0).val = (y 0).val) (h1 : (i 1).val = (y 1).val) :
    (iblk1 V c 2 t : Vec Ideal S128x128 .f32) y = (V c main_arg5 : S128x128.Idx → EReal) i := by
  have e0 := wt0 t
  have e1 := wt1 t
  unfold iblk1
  rw [View.read_apply]
  show V c main_arg5 _ = V c main_arg5 _
  congr 1
  funext a
  apply Fin.ext
  match a with
  | ⟨0, _⟩ => show win1_2.index t (0 : Fin 2) * 128 + 1 * (y 0).val = (i 0).val; rw [e0, h0]; omega
  | ⟨1, _⟩ => show win1_2.index t (1 : Fin 2) * 128 + 1 * (y 1).val = (i 1).val; rw [e1, h1]; omega

/-- What point t writes back is block t of the layer function of the arrays the region is entered with. -/
theorem flushed (c : Dev nD) (t : Fin cfg1.N) :
    (dat1 V c).flushed 3 t = ((cfg1.win 3).blk t).view.read (Elt Ideal)
      (Cert.Gcn.dense (Cert.Gcn.biasReluRow (V c main_v46) (V c main_v47)) (V c main_arg5)) := by
  show (cfg1.win 3).cut (grid1.coords t) ((dat1 V c).after 3 t) = _
  rw [after1_3]
  unfold out1_3
  rw [View.canon_unit_zero zeroOffsets]
  simp only [View.ld_unit_zero (S := S1000x128) zeroOffsets, View.ld_unit_zero (S := S1x128) zeroOffsets, View.ld_unit_zero (S := S128x128) zeroOffsets]
  have e4 := out0 t
  have e5 := out1 t
  funext j
  show k1_pay1 (iblk1 V c 0 t) (iblk1 V c 1 t) (iblk1 V c 2 t) j
    = Cert.Gcn.dense (Cert.Gcn.biasReluRow (V c main_v46) (V c main_v47)) (V c main_arg5) (((cfg1.win 3).blk t).view.emb j)
  refine (body_at (iblk1 V c 0 t) (iblk1 V c 1 t) (iblk1 V c 2 t) j).trans ?_
  unfold Cert.Gcn.dense Cert.Gcn.biasReluRow
  refine Finset.sum_congr rfl fun k _ => ?_
  refine congrArg₂ (· * ·) (congrArg₂ max (congrArg₂ (· + ·) (inputBlock V c t _ _ ?_ ?_) (biasBlock V c t _ _ ?_ ?_)) rfl) (weightBlock V c t _ _ ?_ ?_)
  · show win1_3.index t (0 : Fin 2) * 1000 + 1 * (j 0).val = 1000 * t.val + (j 0).val
    rw [e4]; omega
  · rfl
  · rfl
  · rfl
  · rfl
  · show win1_3.index t (1 : Fin 2) * 128 + 1 * (j 1).val = (j 1).val
    rw [e5]; omega

/-- An index of the output array is in point t's block iff each coordinate is in the block's range on its axis. -/
theorem mem_block (t : Fin cfg1.N) (i : S10000x128.Idx) :
    i ∈ ((cfg1.win 3).blk t).view.set ↔ ∀ a : Fin 2, win1_3.index t a * S1000x128.size a ≤ (i a).val ∧ (i a).val < win1_3.index t a * S1000x128.size a + S1000x128.size a := by
  show i ∈ ((View.whole main_v48).slice (win1_3.rect t)).set ↔ _
  rw [View.set_slice_whole, Rect.mem_set_unit]
  exact Iff.rfl

/-- Row r of the output is written by point r / 1000: the ten blocks tile the array. -/
theorem cover (i : S10000x128.Idx) : ∃ t : Fin cfg1.N, (cfg1.win 3).flush t = true ∧ i ∈ ((cfg1.win 3).blk t).view.set := by
  have hi0 : (i 0).val < 10000 := (i 0).isLt
  have hi1 : (i 1).val < 128 := (i 1).isLt
  obtain ⟨t, ht⟩ := blockOnto ⟨(i 0).val / 1000, by omega⟩
  have q0 : win1_3.index t (0 : Fin 2) = (i 0).val / 1000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 1000 ≤ (i 0).val ∧ (i 0).val < win1_3.index t (0 : Fin 2) * 1000 + 1000; omega
  | ⟨1, _⟩ => show win1_3.index t (1 : Fin 2) * 128 ≤ (i 1).val ∧ (i 1).val < win1_3.index t (1 : Fin 2) * 128 + 128; omega

/-- The output array after the region: the layer function of the arrays as the region found them. -/
theorem final (c : Dev nD) :
    (dat1 V c).arrAt 3 cfg1.N = Cert.Gcn.dense (Cert.Gcn.biasReluRow (V c main_v46) (V c main_v47)) (V c main_arg5) :=
  (dat1 V c).arrAt_eq_of_cover 3 (Cert.Gcn.dense (Cert.Gcn.biasReluRow (V c main_v46) (V c main_v47)) (V c main_arg5)) (fun t _ => flushed V c t) cover

end Cert.KernelIdeal.Blocks1

end
-- ==== Proof.Blocks2.lean ====
/-
  The third kernel region (bias and rectifier of layer two), read as ONE function of whole arrays.

  Point t of its ten-point grid loads rows 1000·t … 1000·t + 999 of the aggregated [10000, 128] array and the whole
  [1, 128] bias row, and writes the same rows of the output: the block plus the bias row, against zero. Entry (p, q) of
  block t is entry (1000·t + p, q) of `biasReluRow a b` of the whole arrays, and the ten blocks tile the output.
-/
import proofs.«166314_j32925219291716_2_alg».proof.Proof.Gen.KernelIdeal.Frame
import proofs.«166314_j32925219291716_2_alg».proof.Proof.Payloads
import proofs.«166314_j32925219291716_2_alg».proof.Proof.Layers
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks2

open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- The block indices of the three windows at every grid point: the row-blocked windows sit at block (t, 0), the bias
    window at block (0, 0). -/
theorem in0 : ∀ t : Fin cfg2.N, win2_0.index t (0 : Fin 2) = t.val := (by decide +kernel : ∀ t : Fin grid2.N, _)
theorem in1 : ∀ t : Fin cfg2.N, win2_0.index t (1 : Fin 2) = 0 := (by decide +kernel : ∀ t : Fin grid2.N, _)
theorem bias0 : ∀ t : Fin cfg2.N, win2_1.index t (0 : Fin 2) = 0 := (by decide +kernel : ∀ t : Fin grid2.N, _)
theorem bias1 : ∀ t : Fin cfg2.N, win2_1.index t (1 : Fin 2) = 0 := (by decide +kernel : ∀ t : Fin grid2.N, _)
theorem out0 : ∀ t : Fin cfg2.N, win2_2.index t (0 : Fin 2) = t.val := (by decide +kernel : ∀ t : Fin grid2.N, _)
theorem out1 : ∀ t : Fin cfg2.N, win2_2.index t (1 : Fin 2) = 0 := (by decide +kernel : ∀ t : Fin grid2.N, _)

/-- Every row block of the output is some point's. -/
theorem blockOnto : ∀ q0 : Fin 10, ∃ t : Fin cfg2.N, win2_2.index t = ![q0.val, 0] :=
  (by decide +kernel : ∀ q0 : Fin 10, ∃ t : Fin grid2.N, win2_2.index t = ![q0.val, 0])

/-- The body's value at any entry of its block, by the entry's coordinates. -/
theorem body_at (a : Vec Ideal S1000x128 .f32) (b : Vec Ideal S1x128 .f32) (j : S1000x128.Idx) :
    k2_pay1 a b j = max (a (ix2 (j 0) (j 1)) + b (ix2 (0 : Fin 1) (j 1))) Cert.Gcn.zero := by
  obtain ⟨p, q, rfl⟩ : ∃ (p : Fin 1000) (q : Fin 128), j = ix2 p q := ⟨j 0, j 1, eq_ix2 j⟩
  exact Cert.KernelIdeal.Payload.biasRelu_at a b p q

/-- The input window's block at point t is rows 1000·t … of the aggregated array. -/
theorem inputBlock (c : Dev nD) (t : Fin cfg2.N) (y : S1000x128.Idx) (i : S10000x128.Idx)
    (h0 : (i 0).val = 1000 * t.val + (y 0).val) (h1 : (i 1).val = (y 1).val) :
    (iblk2 V c 0 t : Vec Ideal S1000x128 .f32) y = (V c main_v61 : S10000x128.Idx → EReal) i := by
  have e0 := in0 t
  have e1 := in1 t
  unfold iblk2
  rw [View.read_apply]
  show V c main_v61 _ = V c main_v61 _
  congr 1
  funext a
  apply Fin.ext
  match a with
  | ⟨0, _⟩ => show win2_0.index t (0 : Fin 2) * 1000 + 1 * (y 0).val = (i 0).val; rw [e0, h0]; omega
  | ⟨1, _⟩ => show win2_0.index t (1 : Fin 2) * 128 + 1 * (y 1).val = (i 1).val; rw [e1, h1]; omega

/-- The bias window's block at every point is the whole bias row. -/
theorem biasBlock (c : Dev nD) (t : Fin cfg2.N) (y : S1x128.Idx) (i : S1x128.Idx)
    (h0 : (i 0).val = (y 0).val) (h1 : (i 1).val = (y 1).val) :
    (iblk2 V c 1 t : Vec Ideal S1x128 .f32) y = (V c main_v62 : S1x128.Idx → EReal) i := by
  have e0 := bias0 t
  have e1 := bias1 t
  unfold iblk2
  rw [View.read_apply]
  show V c main_v62 _ = V c main_v62 _
  congr 1
  funext a
  apply Fin.ext
  match a with
  | ⟨0, _⟩ => show win2_1.index t (0 : Fin 2) * 1 + 1 * (y 0).val = (i 0).val; rw [e0, h0]; omega
  | ⟨1, _⟩ => show win2_1.index t (1 : Fin 2) * 128 + 1 * (y 1).val = (i 1).val; rw [e1, h1]; omega

/-- What point t writes back is block t of the layer function of the arrays the region is entered with. -/
theorem flushed (c : Dev nD) (t : Fin cfg2.N) :
    (dat2 V c).flushed 2 t = ((cfg2.win 2).blk t).view.read (Elt Ideal) (Cert.Gcn.biasReluRow (V c main_v61) (V c main_v62)) := by
  show (cfg2.win 2).cut (grid2.coords t) ((dat2 V c).after 2 t) = _
  rw [after2_2]
  unfold out2_2
  rw [View.canon_unit_zero zeroOffsets]
  simp only [View.ld_unit_zero (S := S1000x128) zeroOffsets, View.ld_unit_zero (S := S1x128) zeroOffsets]
  have e4 := out0 t
  have e5 := out1 t
  funext j
  show k2_pay1 (iblk2 V c 0 t) (iblk2 V c 1 t) j
    = Cert.Gcn.biasReluRow (V c main_v61) (V c main_v62) (((cfg2.win 2).blk t).view.emb j)
  refine (body_at (iblk2 V c 0 t) (iblk2 V c 1 t) j).trans ?_
  unfold Cert.Gcn.biasReluRow
  refine congrArg₂ max (congrArg₂ (· + ·) (inputBlock V c t _ _ ?_ ?_) (biasBlock V c t _ _ ?_ ?_)) rfl
  · show win2_2.index t (0 : Fin 2) * 1000 + 1 * (j 0).val = 1000 * t.val + (j 0).val
    rw [e4]; omega
  · show win2_2.index t (1 : Fin 2) * 128 + 1 * (j 1).val = (j 1).val
    rw [e5]; omega
  · rfl
  · show win2_2.index t (1 : Fin 2) * 128 + 1 * (j 1).val = (j 1).val
    rw [e5]; omega

/-- An index of the output array is in point t's block iff each coordinate is in the block's range on its axis. -/
theorem mem_block (t : Fin cfg2.N) (i : S10000x128.Idx) :
    i ∈ ((cfg2.win 2).blk t).view.set ↔ ∀ a : Fin 2, win2_2.index t a * S1000x128.size a ≤ (i a).val ∧ (i a).val < win2_2.index t a * S1000x128.size a + S1000x128.size a := by
  show i ∈ ((View.whole main_v63).slice (win2_2.rect t)).set ↔ _
  rw [View.set_slice_whole, Rect.mem_set_unit]
  exact Iff.rfl

/-- Row r of the output is written by point r / 1000: the ten blocks tile the array. -/
theorem cover (i : S10000x128.Idx) : ∃ t : Fin cfg2.N, (cfg2.win 2).flush t = true ∧ i ∈ ((cfg2.win 2).blk t).view.set := by
  have hi0 : (i 0).val < 10000 := (i 0).isLt
  have hi1 : (i 1).val < 128 := (i 1).isLt
  obtain ⟨t, ht⟩ := blockOnto ⟨(i 0).val / 1000, by omega⟩
  have q0 : win2_2.index t (0 : Fin 2) = (i 0).val / 1000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 1000 ≤ (i 0).val ∧ (i 0).val < win2_2.index t (0 : Fin 2) * 1000 + 1000; omega
  | ⟨1, _⟩ => show win2_2.index t (1 : Fin 2) * 128 ≤ (i 1).val ∧ (i 1).val < win2_2.index t (1 : Fin 2) * 128 + 128; omega

/-- The output array after the region: the layer function of the arrays as the region found them. -/
theorem final (c : Dev nD) :
    (dat2 V c).arrAt 2 cfg2.N = Cert.Gcn.biasReluRow (V c main_v61) (V c main_v62) :=
  (dat2 V c).arrAt_eq_of_cover 2 (Cert.Gcn.biasReluRow (V c main_v61) (V c main_v62)) (fun t _ => flushed V c t) cover

end Cert.KernelIdeal.Blocks2

end
-- ==== Proof.HostOps.lean ====
/-
  The host side of the idealized kernel: the graph operations between its three kernel regions, as functions of arrays.

  * `rows e`, `cols e`: the source and the target node of every edge of the [2, 640000] edge list `e`, with one self
    loop per node (the numbers 0 … 9999) appended: two index vectors of length 650000.
  * `weights w`: the edge weights with a weight one per self loop appended.
  * `degree`: the weights summed per target node; `invSqrtDeg`: its inverse square root where the degree is positive,
    zero elsewhere.
  * `norm e w`: per edge, the inverse square root at its source, times its weight, times the inverse square root at
    its target.
  * `aggregate h r c n`: per edge the row of `h` at the edge's source scaled by the edge's norm, summed per target node
    into a zero array.
  * `rowOf b`: a [128] vector as a [1, 128] row.

  Then what each stretch of host operations leaves in the buffers the later regions and stretches read, from ANY
  contents the stretch is entered with: each result buffer at these functions of the buffers it reads, every buffer the
  stretch does not write as it was.
-/
import proofs.«166314_j32925219291716_2_alg».proof.Proof.Gen.KernelIdeal.Launch
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

abbrev EdgeList : Type := IVec S2x640000 32
abbrev EdgeWeights (F : FTy → Type) : Type := FVec F S640000 .f32
abbrev NodeIx : Type := IVec S650000 32
abbrev PerEdge (F : FTy → Type) : Type := FVec F S650000 .f32
abbrev PerNode (F : FTy → Type) : Type := FVec F S10000 .f32
abbrev Feat (F : FTy → Type) : Type := FVec F S10000x128 .f32
abbrev BiasVec (F : FTy → Type) : Type := FVec F S128 .f32
abbrev BiasRow (F : FTy → Type) : Type := FVec F S1x128 .f32

variable {F : FTy → Type} [FloatOps F]

/-- The source node of every edge, then the self loops' 0 … 9999. -/
def rows (e : EdgeList) : NodeIx :=
  concatenate S650000 0 [⟨S640000, shapeCast S640000 (extractStridedSlice S1x640000 ![0, 0] e slices_S2x640000_S1x640000_0_0) shapeCasts_S1x640000_S640000⟩, ⟨S10000, iotaInDim S10000 32 0⟩] concatenates_S640000_S10000_S650000_d0

/-- The target node of every edge, then the self loops' 0 … 9999. -/
def cols (e : EdgeList) : NodeIx :=
  concatenate S650000 0 [⟨S640000, shapeCast S640000 (extractStridedSlice S1x640000 ![1, 0] e slices_S2x640000_S1x640000_1_0) shapeCasts_S1x640000_S640000⟩, ⟨S10000, iotaInDim S10000 32 0⟩] concatenates_S640000_S10000_S650000_d0

/-- The edge weights, then a one per self loop. -/
def weights (w : EdgeWeights F) : PerEdge F :=
  concatenate S650000 0 [⟨S640000, w⟩, ⟨S10000, broadcastInDim S10000 ![] bcast_S_S10000 (constant (F := F) S_ .f32 0x3F800000#32)⟩] concatenates_S640000_S10000_S650000_d0

/-- The weights summed per target node. -/
def degree (e : EdgeList) (w : EdgeWeights F) : PerNode F :=
  Host.scatterAdd (F := F) scatter_S10000_S650000x1_S650000_n_0_0_1 (broadcastInDim S10000 ![] bcast_S_S10000 (constant (F := F) S_ .f32 0x00000000#32))
    (broadcastInDim S650000x1 ![0] bcast_S650000_S650000x1_0 (cols e)) (weights w)

/-- The inverse square root of the degree where it is positive, zero elsewhere. -/
def invSqrtDeg (e : EdgeList) (w : EdgeWeights F) : PerNode F :=
  select (cmpf (F := F) .ogt (degree e w) (broadcastInDim S10000 ![] bcast_S_S10000 (constant (F := F) S_ .f32 0x00000000#32)))
    (Host.rsqrt (F := F) (degree e w)) (broadcastInDim S10000 ![] bcast_S_S10000 (constant (F := F) S_ .f32 0x00000000#32))

/-- A negative node index counts from the end: 10000 is added to it. -/
def wrap (ix : NodeIx) : NodeIx :=
  select (cmpi .slt ix (broadcastInDim S650000 ![] bcast_S_S650000 (constantI S_ 32 0#32)))
    (addi ix (broadcastInDim S650000 ![] bcast_S_S650000 (constantI S_ 32 10000#32))) ix

/-- A per-node value read at each edge's node. -/
def atNode (d : PerNode F) (ix : NodeIx) : PerEdge F :=
  Host.gather gather_S10000_S650000x1_S650000_n_0_n_n_0_1_1 d (broadcastInDim S650000x1 ![0] bcast_S650000_S650000x1_0 (wrap ix))

/-- Per edge: inverse square root at the source, times the weight, times inverse square root at the target. -/
def norm (e : EdgeList) (w : EdgeWeights F) : PerEdge F :=
  mulf (F := F) (mulf (F := F) (atNode (invSqrtDeg e w) (rows e)) (weights w)) (atNode (invSqrtDeg e w) (cols e))

/-- Per edge the source's row of `h` scaled by the edge's norm, summed per target node into a zero array. -/
def aggregate (h : Feat F) (r c : NodeIx) (n : PerEdge F) : Feat F :=
  Host.scatterAdd (F := F) scatter_S10000x128_S650000x1_S650000x128_1_0_0_1
    (broadcastInDim S10000x128 ![] bcast_S_S10000x128 (constant (F := F) S_ .f32 0x00000000#32))
    (broadcastInDim S650000x1 ![0] bcast_S650000_S650000x1_0 c)
    (mulf (F := F) (broadcastInDim S650000x128 ![0, 1] bcast_S650000x1_S650000x128_0_1 (broadcastInDim S650000x1 ![0] bcast_S650000_S650000x1_0 n))
      (Host.gather gather_S10000x128_S650000x1_S650000x128_1_0_n_n_0_1_1128 h (broadcastInDim S650000x1 ![0] bcast_S650000_S650000x1_0 (wrap r))))

/-- A [128] vector as a [1, 128] row. -/
def rowOf (b : BiasVec F) : BiasRow F := shapeCast S1x128 b shapeCasts_S128_S1x128

variable (W : Valuation τ sig (Elt F))

/-! ## The stretch before the first region -/

/-- The contents after the three first stretches (the edge lists, the norm), from contents `W`. -/
abbrev before0 : Valuation τ sig (Elt F) :=
  StableHlo.after (hostOps0_2 (F := F)) (StableHlo.after (hostOps0_1 (F := F)) (StableHlo.after (hostOps0 (F := F)) W))

theorem before0_rows : before0 W (Proc.devRef .tc main_v5) = rows (W (Proc.devRef .tc main_arg1)) := by
  dsimp only [before0, hostOps0_2, hostOps0_1, hostOps0]; after_results_simp <;> rfl
theorem before0_cols : before0 W (Proc.devRef .tc main_v6) = cols (W (Proc.devRef .tc main_arg1)) := by
  dsimp only [before0, hostOps0_2, hostOps0_1, hostOps0]; after_results_simp <;> rfl
theorem before0_norm : before0 W (Proc.devRef .tc main_v32) = norm (W (Proc.devRef .tc main_arg1)) (W (Proc.devRef .tc main_arg2)) := by
  dsimp only [before0, hostOps0_2, hostOps0_1, hostOps0]; after_results_simp <;> rfl
theorem before0_arg0 : before0 W (Proc.devRef .tc main_arg0) = W (Proc.devRef .tc main_arg0) := by
  dsimp only [before0, hostOps0_2, hostOps0_1, hostOps0]; after_results_simp <;> rfl
theorem before0_arg3 : before0 W (Proc.devRef .tc main_arg3) = W (Proc.devRef .tc main_arg3) := by
  dsimp only [before0, hostOps0_2, hostOps0_1, hostOps0]; after_results_simp <;> rfl
theorem before0_arg4 : before0 W (Proc.devRef .tc main_arg4) = W (Proc.devRef .tc main_arg4) := by
  dsimp only [before0, hostOps0_2, hostOps0_1, hostOps0]; after_results_simp <;> rfl
theorem before0_arg5 : before0 W (Proc.devRef .tc main_arg5) = W (Proc.devRef .tc main_arg5) := by
  dsimp only [before0, hostOps0_2, hostOps0_1, hostOps0]; after_results_simp <;> rfl
theorem before0_arg6 : before0 W (Proc.devRef .tc main_arg6) = W (Proc.devRef .tc main_arg6) := by
  dsimp only [before0, hostOps0_2, hostOps0_1, hostOps0]; after_results_simp <;> rfl

/-! ## The stretch between the first and the second region -/

theorem between1_agg : StableHlo.after (hostOps1 (F := F)) W (Proc.devRef .tc main_v46)
    = aggregate (W (Proc.devRef .tc main_v33)) (W (Proc.devRef .tc main_v5)) (W (Proc.devRef .tc main_v6)) (W (Proc.devRef .tc main_v32)) := by
  dsimp only [hostOps1]; after_results_simp <;> rfl
theorem between1_bias : StableHlo.after (hostOps1 (F := F)) W (Proc.devRef .tc main_v47) = rowOf (W (Proc.devRef .tc main_arg4)) := by
  dsimp only [hostOps1]; after_results_simp <;> rfl
theorem between1_arg5 : StableHlo.after (hostOps1 (F := F)) W (Proc.devRef .tc main_arg5) = W (Proc.devRef .tc main_arg5) := by
  dsimp only [hostOps1]; after_results_simp <;> rfl
theorem between1_arg6 : StableHlo.after (hostOps1 (F := F)) W (Proc.devRef .tc main_arg6) = W (Proc.devRef .tc main_arg6) := by
  dsimp only [hostOps1]; after_results_simp <;> rfl
theorem between1_rows : StableHlo.after (hostOps1 (F := F)) W (Proc.devRef .tc main_v5) = W (Proc.devRef .tc main_v5) := by
  dsimp only [hostOps1]; after_results_simp <;> rfl
theorem between1_cols : StableHlo.after (hostOps1 (F := F)) W (Proc.devRef .tc main_v6) = W (Proc.devRef .tc main_v6) := by
  dsimp only [hostOps1]; after_results_simp <;> rfl
theorem between1_norm : StableHlo.after (hostOps1 (F := F)) W (Proc.devRef .tc main_v32) = W (Proc.devRef .tc main_v32) := by
  dsimp only [hostOps1]; after_results_simp <;> rfl

/-! ## The stretch between the second and the third region -/

theorem between2_agg : StableHlo.after (hostOps2 (F := F)) W (Proc.devRef .tc main_v61)
    = aggregate (W (Proc.devRef .tc main_v48)) (W (Proc.devRef .tc main_v5)) (W (Proc.devRef .tc main_v6)) (W (Proc.devRef .tc main_v32)) := by
  dsimp only [hostOps2]; after_results_simp <;> rfl
theorem between2_bias : StableHlo.after (hostOps2 (F := F)) W (Proc.devRef .tc main_v62) = rowOf (W (Proc.devRef .tc main_arg6)) := by
  dsimp only [hostOps2]; after_results_simp <;> rfl

end Cert.KernelIdeal.Host

end
-- ==== Proof.KernelValue.lean ====
/-
  The idealized kernel's result array as ONE function of its seven argument arrays.

  The program's segments are walked in order, each buffer a later segment reads followed from where it is written:
  the first host stretch leaves the two node-index vectors and the per-edge norm (functions of the edge list and the
  edge weights) and touches no argument; the first region leaves `dense x w1`; the next stretch aggregates it over the
  edges and lays the first bias out as a row; the second region leaves `dense (biasReluRow · ·) w2` of those; the last
  stretch aggregates again and lays out the second bias; the third region leaves `biasReluRow` of those. A region
  changes only its own output array and a host stretch only its own results, so the index vectors, the norm and the
  arguments are the same at every boundary.
-/
import proofs.«166314_j32925219291716_2_alg».proof.Proof.Gen.KernelIdeal.Frame
import proofs.«166314_j32925219291716_2_alg».proof.Proof.Blocks0
import proofs.«166314_j32925219291716_2_alg».proof.Proof.Blocks1
import proofs.«166314_j32925219291716_2_alg».proof.Proof.Blocks2
import proofs.«166314_j32925219291716_2_alg».proof.Proof.HostOps
import proofs.«166314_j32925219291716_2_alg».proof.Proof.Layers

set_option maxRecDepth 16384

noncomputable section

namespace Cert.KernelIdeal.Walk

open Cert.KernelIdeal Cert.KernelIdeal.Gen Idealize.ShloMosaic Idealize.ShloMosaic.TcCoe Idealize.SL.Sem
open Cert.KernelIdeal.Host (rows cols norm aggregate rowOf)
open Cert.Gcn (dense biasReluRow)

/-- Two graph-convolution layers: the kernel's result as a function of its arguments. -/
def value (x : Host.Feat Ideal) (e : Host.EdgeList) (w : Host.EdgeWeights Ideal) (w1 : (⟨S128x128, .f32⟩ : BufTy).Contents (Elt Ideal))
    (b1 : Host.BiasVec Ideal) (w2 : (⟨S128x128, .f32⟩ : BufTy).Contents (Elt Ideal)) (b2 : Host.BiasVec Ideal) : Host.Feat Ideal :=
  biasReluRow (aggregate (dense (biasReluRow (aggregate (dense x w1) (rows e) (cols e) (norm e w)) (rowOf b1)) w2)
    (rows e) (cols e) (norm e w)) (rowOf b2)

variable (m : (ℓ : Loc nD τ sig) → Buf (Elt Ideal) ℓ) (ρ : Dev nD → PrngReg) (c : Dev nD)

/-! ## At the first region's entry -/

theorem at3_rows : W3 m ρ c (Proc.devRef .tc main_v5) = rows (m ((c : Thread nD τ).loc main_arg1)) := Host.before0_rows (W0 m ρ c)
theorem at3_cols : W3 m ρ c (Proc.devRef .tc main_v6) = cols (m ((c : Thread nD τ).loc main_arg1)) := Host.before0_cols (W0 m ρ c)
theorem at3_norm : W3 m ρ c (Proc.devRef .tc main_v32) = norm (F := Ideal) (m ((c : Thread nD τ).loc main_arg1)) (m ((c : Thread nD τ).loc main_arg2)) := Host.before0_norm (W0 m ρ c)
theorem at3_arg0 : W3 m ρ c (Proc.devRef .tc main_arg0) = (m ((c : Thread nD τ).loc main_arg0)) := Host.before0_arg0 (W0 m ρ c)
theorem at3_arg3 : W3 m ρ c (Proc.devRef .tc main_arg3) = (m ((c : Thread nD τ).loc main_arg3)) := Host.before0_arg3 (W0 m ρ c)
theorem at3_arg4 : W3 m ρ c (Proc.devRef .tc main_arg4) = (m ((c : Thread nD τ).loc main_arg4)) := Host.before0_arg4 (W0 m ρ c)
theorem at3_arg5 : W3 m ρ c (Proc.devRef .tc main_arg5) = (m ((c : Thread nD τ).loc main_arg5)) := Host.before0_arg5 (W0 m ρ c)
theorem at3_arg6 : W3 m ρ c (Proc.devRef .tc main_arg6) = (m ((c : Thread nD τ).loc main_arg6)) := Host.before0_arg6 (W0 m ρ c)

/-! ## At the first region's exit -/

theorem at4_feat : W4 m ρ c (Proc.devRef .tc main_v33) = dense (m ((c : Thread nD τ).loc main_arg0)) (m ((c : Thread nD τ).loc main_arg3)) :=
  (W4_arr m ρ c 2).trans ((Blocks0.final (V3 m ρ) c).trans (congrArg₂ dense (at3_arg0 m ρ c) (at3_arg3 m ρ c)))
theorem at4_rows : W4 m ρ c (Proc.devRef .tc main_v5) = rows (m ((c : Thread nD τ).loc main_arg1)) := (W4_of_ne m ρ c main_v5 (by decide)).trans (at3_rows m ρ c)
theorem at4_cols : W4 m ρ c (Proc.devRef .tc main_v6) = cols (m ((c : Thread nD τ).loc main_arg1)) := (W4_of_ne m ρ c main_v6 (by decide)).trans (at3_cols m ρ c)
theorem at4_norm : W4 m ρ c (Proc.devRef .tc main_v32) = norm (F := Ideal) (m ((c : Thread nD τ).loc main_arg1)) (m ((c : Thread nD τ).loc main_arg2)) := (W4_of_ne m ρ c main_v32 (by decide)).trans (at3_norm m ρ c)
theorem at4_arg4 : W4 m ρ c (Proc.devRef .tc main_arg4) = (m ((c : Thread nD τ).loc main_arg4)) := (W4_of_ne m ρ c main_arg4 (by decide)).trans (at3_arg4 m ρ c)
theorem at4_arg5 : W4 m ρ c (Proc.devRef .tc main_arg5) = (m ((c : Thread nD τ).loc main_arg5)) := (W4_of_ne m ρ c main_arg5 (by decide)).trans (at3_arg5 m ρ c)
theorem at4_arg6 : W4 m ρ c (Proc.devRef .tc main_arg6) = (m ((c : Thread nD τ).loc main_arg6)) := (W4_of_ne m ρ c main_arg6 (by decide)).trans (at3_arg6 m ρ c)

/-! ## At the second region's entry -/

/-- The first layer's aggregation. -/
abbrev agg1 : Host.Feat Ideal := aggregate (F := Ideal) (dense (m ((c : Thread nD τ).loc main_arg0)) (m ((c : Thread nD τ).loc main_arg3))) (rows (m ((c : Thread nD τ).loc main_arg1))) (cols (m ((c : Thread nD τ).loc main_arg1))) (norm (F := Ideal) (m ((c : Thread nD τ).loc main_arg1)) (m ((c : Thread nD τ).loc main_arg2)))

theorem at5_agg : W5 m ρ c (Proc.devRef .tc main_v46) = agg1 m c :=
  (Host.between1_agg (W4 m ρ c)).trans (by rw [at4_feat, at4_rows, at4_cols, at4_norm])
theorem at5_bias : W5 m ρ c (Proc.devRef .tc main_v47) = rowOf (F := Ideal) (m ((c : Thread nD τ).loc main_arg4)) :=
  (Host.between1_bias (W4 m ρ c)).trans (congrArg rowOf (at4_arg4 m ρ c))
theorem at5_arg5 : W5 m ρ c (Proc.devRef .tc main_arg5) = (m ((c : Thread nD τ).loc main_arg5)) := (Host.between1_arg5 (W4 m ρ c)).trans (at4_arg5 m ρ c)
theorem at5_arg6 : W5 m ρ c (Proc.devRef .tc main_arg6) = (m ((c : Thread nD τ).loc main_arg6)) := (Host.between1_arg6 (W4 m ρ c)).trans (at4_arg6 m ρ c)
theorem at5_rows : W5 m ρ c (Proc.devRef .tc main_v5) = rows (m ((c : Thread nD τ).loc main_arg1)) := (Host.between1_rows (W4 m ρ c)).trans (at4_rows m ρ c)
theorem at5_cols : W5 m ρ c (Proc.devRef .tc main_v6) = cols (m ((c : Thread nD τ).loc main_arg1)) := (Host.between1_cols (W4 m ρ c)).trans (at4_cols m ρ c)
theorem at5_norm : W5 m ρ c (Proc.devRef .tc main_v32) = norm (F := Ideal) (m ((c : Thread nD τ).loc main_arg1)) (m ((c : Thread nD τ).loc main_arg2)) := (Host.between1_norm (W4 m ρ c)).trans (at4_norm m ρ c)

/-! ## At the second region's exit -/

/-- The second layer's features: the first layer's output times the second weight matrix. -/
abbrev feat2 : Host.Feat Ideal := dense (biasReluRow (agg1 m c) (rowOf (F := Ideal) (m ((c : Thread nD τ).loc main_arg4)))) (m ((c : Thread nD τ).loc main_arg5))

theorem at6_feat : W6 m ρ c (Proc.devRef .tc main_v48) = feat2 m c :=
  (W6_arr m ρ c 3).trans ((Blocks1.final (V5 m ρ) c).trans
    (congrArg₂ dense (congrArg₂ biasReluRow (at5_agg m ρ c) (at5_bias m ρ c)) (at5_arg5 m ρ c)))
theorem at6_rows : W6 m ρ c (Proc.devRef .tc main_v5) = rows (m ((c : Thread nD τ).loc main_arg1)) := (W6_of_ne m ρ c main_v5 (by decide)).trans (at5_rows m ρ c)
theorem at6_cols : W6 m ρ c (Proc.devRef .tc main_v6) = cols (m ((c : Thread nD τ).loc main_arg1)) := (W6_of_ne m ρ c main_v6 (by decide)).trans (at5_cols m ρ c)
theorem at6_norm : W6 m ρ c (Proc.devRef .tc main_v32) = norm (F := Ideal) (m ((c : Thread nD τ).loc main_arg1)) (m ((c : Thread nD τ).loc main_arg2)) := (W6_of_ne m ρ c main_v32 (by decide)).trans (at5_norm m ρ c)
theorem at6_arg6 : W6 m ρ c (Proc.devRef .tc main_arg6) = (m ((c : Thread nD τ).loc main_arg6)) := (W6_of_ne m ρ c main_arg6 (by decide)).trans (at5_arg6 m ρ c)

/-! ## At the third region's entry, and its exit -/

theorem at7_agg : W7 m ρ c (Proc.devRef .tc main_v61) = aggregate (F := Ideal) (feat2 m c) (rows (m ((c : Thread nD τ).loc main_arg1))) (cols (m ((c : Thread nD τ).loc main_arg1))) (norm (F := Ideal) (m ((c : Thread nD τ).loc main_arg1)) (m ((c : Thread nD τ).loc main_arg2))) :=
  (Host.between2_agg (W6 m ρ c)).trans (by rw [at6_feat, at6_rows, at6_cols, at6_norm])
theorem at7_bias : W7 m ρ c (Proc.devRef .tc main_v62) = rowOf (F := Ideal) (m ((c : Thread nD τ).loc main_arg6)) :=
  (Host.between2_bias (W6 m ρ c)).trans (congrArg rowOf (at6_arg6 m ρ c))

/-- THE RESULT ARRAY after the run: `value` of the seven argument arrays. -/
theorem result : W8 m ρ c (Proc.devRef .tc main_v63) = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W8_arr m ρ c 2).trans ((Blocks2.final (V7 m ρ) c).trans
    (congrArg₂ biasReluRow (at7_agg m ρ c) (at7_bias m ρ c)))

end Cert.KernelIdeal.Walk

end
-- ==== Proof.RefTerm.lean ====
/-
  The reference program's result as a composition of the two dense layer functions with the graph aggregation.

  The reference computes, twice, a graph convolution: the features times a weight matrix, aggregated over the edges
  (each edge carrying the row at its source, scaled by the edge's norm, to its target), a bias row added, the maximum
  with zero. Read one operation at a time: its two matrix products are `dense`, its two bias-and-maximum steps are
  `biasRelu`, and the aggregation between them is the same host operations both times, on the same edge data.
-/
import proofs.«166314_j32925219291716_2_alg».proof.Proof.Gen.ReferenceIdeal.Read
import proofs.«166314_j32925219291716_2_alg».proof.Proof.Layers
import Idealize.ShloMosaic.Lib.ValueIdx

set_option maxRecDepth 16384

noncomputable section

namespace Cert.ReferenceIdeal.Term

open Cert.ReferenceIdeal Cert.ReferenceIdeal.Gen Cert.ReferenceIdeal.Read Idealize.ShloMosaic Idealize.ShloMosaic.ValueIdx

abbrev Feat : Type := FVec Ideal S10000x128 .f32
abbrev Weight : Type := FVec Ideal S128x128 .f32
abbrev BiasVec : Type := FVec Ideal S128 .f32
abbrev EdgeList : Type := IVec S2x640000 32
abbrev EdgeWeights : Type := FVec Ideal S640000 .f32

/-- The aggregation over the edges of the list `e` with weights `w`: per edge the source's row of `h` scaled by the
    edge's norm, summed per target node into a zero array (the reference's own host operations). -/
def aggregate (h : Feat) (e : EdgeList) (w : EdgeWeights) : Feat :=
  Host.scatterAdd (F := Ideal) scatter_S10000x128_S650000x1_S650000x128_1_0_0_1 (val_main_v44 (F := Ideal)) (val_main_v45 (F := Ideal) e)
    (mulf (F := Ideal) (val_main_v42 (F := Ideal) e w)
      (Host.gather gather_S10000x128_S650000x1_S650000x128_1_0_n_n_0_1_1128 h (val_main_v40 (F := Ideal) e)))

/-- The reference's matrix product is `dense`. -/
theorem dense_eq (x : Feat) (w : Weight) : val_main_v0 (F := Ideal) x w = Cert.Gcn.dense x w := by
  funext i
  rw [val_main_v0_apply]
  unfold Cert.Gcn.dense
  refine Finset.sum_congr rfl fun k _ => ?_
  refine congrArg₂ (· * ·) (congrArg x (funext fun a => ?_)) (congrArg w (funext fun a => ?_))
  · match a with
    | ⟨0, _⟩ => rfl
    | ⟨1, _⟩ => rfl
  · match a with
    | ⟨0, _⟩ => rfl
    | ⟨1, _⟩ => rfl

/-- The reference's bias row broadcast over the rows, added, against the broadcast zero: `biasRelu`. -/
theorem biasRelu_eq (a : Feat) (b : BiasVec) :
    maximumf (F := Ideal) (addf (F := Ideal) a (val_main_v48 (F := Ideal) b)) (val_main_call1_v0 (F := Ideal)) = Cert.Gcn.biasRelu a b := by
  funext i
  show max (a i + val_main_v48 (F := Ideal) b i) (val_main_call1_v0 (F := Ideal) i) = _
  rw [val_main_v48_apply, val_main_v47_apply, val_main_call1_v0_apply, val_main_call1_cst_apply]
  unfold Cert.Gcn.biasRelu
  refine congrArg₂ max (congrArg (a i + ·) (congrArg b (funext fun d => ?_))) rfl
  match d with
  | ⟨0, _⟩ => rfl

/-- Layer one's aggregation is `aggregate` of the first product. -/
theorem first_aggregate (x0 : (⟨S10000x128, .f32⟩ : BufTy).Contents (Elt Ideal)) (x1 : (⟨S2x640000, .i32⟩ : BufTy).Contents (Elt Ideal)) (x2 : (⟨S640000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v46 (F := Ideal) x0 x1 x2 x3 = aggregate (val_main_v0 (F := Ideal) x0 x3) x1 x2 := rfl

/-- Layer one's output is the bias-and-maximum of its aggregation. -/
theorem first_layer (x0 : (⟨S10000x128, .f32⟩ : BufTy).Contents (Elt Ideal)) (x1 : (⟨S2x640000, .i32⟩ : BufTy).Contents (Elt Ideal)) (x2 : (⟨S640000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v50 (F := Ideal) x0 x1 x2 x3 x4
      = maximumf (F := Ideal) (s := S10000x128) (φ := .f32) (addf (F := Ideal) (s := S10000x128) (φ := .f32) (val_main_v46 (F := Ideal) x0 x1 x2 x3) (val_main_v48 (F := Ideal) x4)) (val_main_call1_v0 (F := Ideal)) := rfl

/-- Layer two's product is the first layer's output times the second weight matrix. -/
theorem second_dense (x0 : (⟨S10000x128, .f32⟩ : BufTy).Contents (Elt Ideal)) (x1 : (⟨S2x640000, .i32⟩ : BufTy).Contents (Elt Ideal)) (x2 : (⟨S640000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v51 (F := Ideal) x0 x1 x2 x3 x4 x5 = val_main_v0 (F := Ideal) (val_main_v50 (F := Ideal) x0 x1 x2 x3 x4) x5 := rfl

/-- Layer two's aggregation is the same aggregation (the same host operations on the same edge data). -/
theorem second_aggregate (x0 : (⟨S10000x128, .f32⟩ : BufTy).Contents (Elt Ideal)) (x1 : (⟨S2x640000, .i32⟩ : BufTy).Contents (Elt Ideal)) (x2 : (⟨S640000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v97 (F := Ideal) x0 x1 x2 x3 x4 x5 = aggregate (val_main_v51 (F := Ideal) x0 x1 x2 x3 x4 x5) x1 x2 := rfl

/-- The result is the bias-and-maximum of layer two's aggregation. -/
theorem second_layer (x0 : (⟨S10000x128, .f32⟩ : BufTy).Contents (Elt Ideal)) (x1 : (⟨S2x640000, .i32⟩ : BufTy).Contents (Elt Ideal)) (x2 : (⟨S640000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v101 (F := Ideal) x0 x1 x2 x3 x4 x5 x6
      = maximumf (F := Ideal) (s := S10000x128) (φ := .f32) (addf (F := Ideal) (s := S10000x128) (φ := .f32) (val_main_v97 (F := Ideal) x0 x1 x2 x3 x4 x5) (val_main_v48 (F := Ideal) x6)) (val_main_call1_v0 (F := Ideal)) := rfl

/-- The reference's result: two graph-convolution layers. -/
theorem result_eq (x0 : (⟨S10000x128, .f32⟩ : BufTy).Contents (Elt Ideal)) (x1 : (⟨S2x640000, .i32⟩ : BufTy).Contents (Elt Ideal)) (x2 : (⟨S640000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v101 (F := Ideal) x0 x1 x2 x3 x4 x5 x6
      = Cert.Gcn.biasRelu (aggregate (Cert.Gcn.dense (Cert.Gcn.biasRelu (aggregate (Cert.Gcn.dense x0 x3) x1 x2) x4) x5) x1 x2) x6 := by
  rw [second_layer x0 x1 x2 x3 x4 x5 x6, biasRelu_eq, second_aggregate x0 x1 x2 x3 x4 x5 x6, second_dense x0 x1 x2 x3 x4 x5 x6, dense_eq, first_layer x0 x1 x2 x3 x4 x5 x6, biasRelu_eq,
    first_aggregate x0 x1 x2 x3 x4 x5 x6, dense_eq]

end Cert.ReferenceIdeal.Term

end
-- ==== Proof.LibUnitRow.lean ====
/-
  A vector laid out as a one-row matrix, read at an index.

  A `[a]` vector cast to a `[1, a]` array (a reshape that adds a leading unit axis) read at `(u, j)` is the vector's
  entry `j`: both positions are the `j`-th in row-major order, the row coordinate `u` of the unit axis being 0.
-/
import Idealize.ShloMosaic.Lib.Pipeline.Value
import Idealize.ShloMosaic.Lib.ValueIdx

noncomputable section

namespace Cert.LibUnitRow

open Idealize.ShloMosaic Idealize.ShloMosaic.ValueIdx

/-- An `[a]` vector cast to a `[1, a]` row, read at `(u, j)`: the vector's entry `j`. -/
theorem unitRow_apply {a : ℕ} {α : Type} (x : (⟨1, ![a]⟩ : Shape).Idx → α)
    (h : (⟨1, ![a]⟩ : Shape).ShapeCasts ⟨2, ![1, a]⟩) (u : Fin 1) (j : Fin a) :
    shapeCast ⟨2, ![1, a]⟩ x h (ix2 u j) = x (ix1 j) :=
  shapeCast_apply x h (ix2 u j) (ix1 j) (by
    rw [Shape.rowMajor_val_one, Shape.rowMajor_val_two]
    show j.val = u.val * a + j.val
    have hu : u.val = 0 := by have := u.isLt; omega
    rw [hu]
    omega)

end Cert.LibUnitRow

end
-- ==== Proof.Bridge.lean ====
/-
  The two programs compute one function.

  The kernel's result is `value`: two layers of (dense product, aggregation over the edges, bias row, maximum with zero)
  with the bias laid out as a [1, 128] row; the reference's result is the same two layers with the bias as a [128]
  vector. A vector laid out as a one-row matrix has the same entries, and the aggregation is the same host operations
  on the same edge data in both programs — the kernel computes the edges' index vectors and norms once and the reference
  once per layer, from the same arguments by the same operations.
-/
import proofs.«166314_j32925219291716_2_alg».proof.Proof.KernelValue
import proofs.«166314_j32925219291716_2_alg».proof.Proof.RefTerm
import proofs.«166314_j32925219291716_2_alg».proof.Proof.LibUnitRow

set_option maxRecDepth 16384

noncomputable section

namespace Cert.Bridge

open Idealize.ShloMosaic Idealize.ShloMosaic.ValueIdx

/-- The bias as a one-row matrix or as a vector: the same layer function. -/
theorem rowBias (a : Cert.Gcn.Feat) (b : Cert.KernelIdeal.Host.BiasVec Ideal) :
    Cert.Gcn.biasReluRow a (Cert.KernelIdeal.Host.rowOf b) = Cert.Gcn.biasRelu a b := by
  funext i
  unfold Cert.Gcn.biasReluRow Cert.Gcn.biasRelu Cert.KernelIdeal.Host.rowOf
  exact congrArg₂ max (congrArg (a i + ·) (Cert.LibUnitRow.unitRow_apply b Cert.KernelIdeal.Gen.shapeCasts_S128_S1x128 0 _)) rfl

/-- The kernel's aggregation with its index vectors and norm is the reference's aggregation of the same edge data. -/
theorem sameAggregate (h : Cert.KernelIdeal.Host.Feat Ideal) (e : Cert.KernelIdeal.Host.EdgeList) (w : Cert.KernelIdeal.Host.EdgeWeights Ideal) :
    Cert.KernelIdeal.Host.aggregate h (Cert.KernelIdeal.Host.rows e) (Cert.KernelIdeal.Host.cols e) (Cert.KernelIdeal.Host.norm e w)
      = Cert.ReferenceIdeal.Term.aggregate h e w := rfl

/-- The kernel's function of the seven arguments is the reference's. -/
theorem value_eq (x : Cert.KernelIdeal.Host.Feat Ideal) (e : Cert.KernelIdeal.Host.EdgeList) (w : Cert.KernelIdeal.Host.EdgeWeights Ideal)
    (w1 : FVec Ideal Cert.KernelIdeal.S128x128 .f32) (b1 : Cert.KernelIdeal.Host.BiasVec Ideal)
    (w2 : FVec Ideal Cert.KernelIdeal.S128x128 .f32) (b2 : Cert.KernelIdeal.Host.BiasVec Ideal) :
    Cert.KernelIdeal.Walk.value x e w w1 b1 w2 b2 = Cert.ReferenceIdeal.Read.val_main_v101 (F := Ideal) x e w w1 b1 w2 b2 := by
  rw [Cert.ReferenceIdeal.Term.result_eq]
  unfold Cert.KernelIdeal.Walk.value
  rw [rowBias, rowBias, sameAggregate, sameAggregate]

end Cert.Bridge

end
-- ==== Proof.lean ====
/-
  A two-layer graph convolution on 10000 nodes with 128 features, its three dense pieces as kernels, against the same
  network written with plain array operations.

  One layer is: the node features times a weight matrix; per edge (640000 given edges and one self loop per node) the
  product's row at the edge's source scaled by the edge's norm — the inverse square roots of the weighted degrees of its
  two ends times its weight —, summed per target node; a bias row added; the maximum with zero. The kernel program
  computes the first product in one kernel, fuses the first layer's bias and maximum with the second product in a
  second, and does the second layer's bias and maximum in a third, each over ten blocks of a thousand rows, with the
  edge aggregation as host operations in between. On the extended reals a change of float format is the identity, a
  blocked product is the product, and a bias laid out as a one-row matrix is the bias: both programs are the same
  composition of the same functions of their seven arguments, so no finiteness of the inputs is used.

  The frames of the two kernel programs are the generated frame certificates; the reference's frame is its generated
  run with the result dropped; the idealization rewrote nothing, so it preserves the kernel trivially.
-/
import proofs.«166314_j32925219291716_2_alg».proof.Defs
import proofs.«166314_j32925219291716_2_alg».proof.Proof.Gen.Kernel
import proofs.«166314_j32925219291716_2_alg».proof.Proof.Gen.Kernel.Frame
import proofs.«166314_j32925219291716_2_alg».proof.Proof.Gen.KernelIdeal
import proofs.«166314_j32925219291716_2_alg».proof.Proof.Gen.KernelIdeal.Frame
import proofs.«166314_j32925219291716_2_alg».proof.Proof.Gen.ReferenceIdeal
import proofs.«166314_j32925219291716_2_alg».proof.Proof.Gen.ReferenceIdeal.Run
import proofs.«166314_j32925219291716_2_alg».proof.Proof.Gen.ReferenceIdeal.Read
import proofs.«166314_j32925219291716_2_alg».proof.Proof.Gen.Pre_finite_inputs
import proofs.«166314_j32925219291716_2_alg».proof.Proof.KernelRun
import proofs.«166314_j32925219291716_2_alg».proof.Proof.KernelValue
import proofs.«166314_j32925219291716_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel program, as printed: it runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the seven arguments both idealized programs end with the same result array: the
    kernel's run leaves the two-layer function of its arguments, the reference's run its composed term, and the two are
    one function. -/
theorem algebraic : Cert.algebraic_KernelIdeal_ReferenceIdeal := by
  intro m ρ m' ρ' _ hagree
  refine ⟨fun c => Cert.KernelIdeal.Walk.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Walk.result m ρ c), (h c).2⟩)
      (Cert.KernelIdeal.Whole.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v101_eq, (hagree c).1, (hagree c).2.1, (hagree c).2.2.1, (hagree c).2.2.2.1,
      (hagree c).2.2.2.2.1, (hagree c).2.2.2.2.2.1, (hagree c).2.2.2.2.2.2]
    exact (Cert.Bridge.value_eq _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
